-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S8x64x7x4096 : Shape := ⟨4, ![8, 64, 7, 4096]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S8x64x7x4096 : S_.BroadcastsInDim S8x64x7x4096 (![] : Fin 0 → Fin S8x64x7x4096.rank)
  reducesTo_S8x64x7x4096_S_d0_1_2_3 : S8x64x7x4096.ReducesTo [0, 1, 2, 3] S_

variable [Facts]

def fn {F : FTy → Type} [FloatOps F] (main_arg0 : FVec F S8x512x4096 .f32) (main_arg1 : FVec F S8x64x7x4096 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S8x64x7x4096 .f32 := Host.absf main_arg1
  let main_cst_0 : FVec F S_ .f32 := constant S_ .f32 0x7F800000#32
  let main_v5 : FVec F S8x64x7x4096 .f32 := broadcastInDim S8x64x7x4096 ![] bcast_S_S8x64x7x4096 main_cst_0
  let main_v6 : IVec S8x64x7x4096 1 := cmpf .olt main_v4 main_v5
  let main_c_1 : IVec S_ 1 := constantI S_ 1 1#1
  let main_v7 : IVec S_ 1 := (fun x v => Host.reduce IntOp.andi x v reducesTo_S8x64x7x4096_S_d0_1_2_3 h_S_) main_v6 main_c_1
  let main_v8 : IVec S_ 1 := andi main_v3 main_v7
  main_v8
-- ==== Kernel.lean ====
abbrev S8x512x4096 : Shape := ⟨3, ![8, 512, 4096]⟩
abbrev S8x64x7x4096 : Shape := ⟨4, ![8, 64, 7, 4096]⟩
abbrev S8x64x8x4096 : Shape := ⟨4, ![8, 64, 8, 4096]⟩
abbrev S1x16x8x4096 : Shape := ⟨4, ![1, 16, 8, 4096]⟩
abbrev S1x16x7x4096 : Shape := ⟨4, ![1, 16, 7, 4096]⟩
abbrev S1x16x8x3 : Shape := ⟨4, ![1, 16, 8, 3]⟩
abbrev S1x16x8x4099 : Shape := ⟨4, ![1, 16, 8, 4099]⟩
abbrev S1x16x8x4102 : Shape := ⟨4, ![1, 16, 8, 4102]⟩
abbrev S1x16x1x4096 : Shape := ⟨4, ![1, 16, 1, 4096]⟩

abbrev nBuf : Space → Nat
  | .hbm => 5
  | .vmem => 6
  | .smem => 0
  | _ => 0

abbrev bufTy : (tb : Table) → Fin (tcTables nBuf tb) → BufTy
  | .hbm, ⟨0, _⟩ => ⟨S8x512x4096, .f32⟩
  | .hbm, ⟨1, _⟩ => ⟨S8x64x7x4096, .f32⟩
  | .hbm, ⟨2, _⟩ => ⟨S8x64x8x4096, .f32⟩
  | .hbm, ⟨3, _⟩ => ⟨S8x64x8x4096, .f32⟩
  | .hbm, ⟨4, _⟩ => ⟨S8x512x4096, .f32⟩
  | .local _ .vmem, ⟨0, _⟩ => ⟨S1x16x8x4096, .f32⟩
  | .local _ .vmem, ⟨1, _⟩ => ⟨S1x16x8x4096, .f32⟩
  | .local _ .vmem, ⟨2, _⟩ => ⟨S1x16x7x4096, .f32⟩
  | .local _ .vmem, ⟨3, _⟩ => ⟨S1x16x7x4096, .f32⟩
  | .local _ .vmem, ⟨4, _⟩ => ⟨S1x16x8x4096, .f32⟩
  | .local _ .vmem, ⟨5, _⟩ => ⟨S1x16x8x4096, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x7x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x512x4096_S8x64x8x4096 : S8x512x4096.ShapeCasts S8x64x8x4096
  inb_S1x16x8x4096_S1x16x8x4096_0_0_0_0 : ∀ a, (![0, 0, 0, 0] : Fin 4 → Nat) a + S1x16x8x4096.size a ≤ S1x16x8x4096.size a
  h_S1x16x8x4096 : 0 < S1x16x8x4096.numel
  shapeCasts_S1x16x8x4096_S1x16x8x4096 : S1x16x8x4096.ShapeCasts S1x16x8x4096
  inb_S1x16x7x4096_S1x16x7x4096_0_0_0_0 : ∀ a, (![0, 0, 0, 0] : Fin 4 → Nat) a + S1x16x7x4096.size a ≤ S1x16x7x4096.size a
  h_S1x16x7x4096 : 0 < S1x16x7x4096.numel
  concatenates_S1x16x8x3_S1x16x8x4096_S1x16x8x4099_d3 : Shape.Concatenates [S1x16x8x3, S1x16x8x4096] S1x16x8x4099 3
  concatenates_S1x16x8x4099_S1x16x8x3_S1x16x8x4102_d3 : Shape.Concatenates [S1x16x8x4099, S1x16x8x3] S1x16x8x4102 3
  slices_S1x16x8x4102_o0_0_0_0_S1x16x8x4096 : S1x16x8x4102.Slices ![0, 0, 0, 0] S1x16x8x4096
  slices_S1x16x7x4096_o0_0_0_0_S1x16x1x4096 : S1x16x7x4096.Slices ![0, 0, 0, 0] S1x16x1x4096
  broadcasts_S1x16x1x4096_S1x16x8x4096 : S1x16x1x4096.Broadcasts S1x16x8x4096
  slices_S1x16x8x4102_o0_0_0_1_S1x16x8x4096 : S1x16x8x4102.Slices ![0, 0, 0, 1] S1x16x8x4096
  slices_S1x16x7x4096_o0_0_1_0_S1x16x1x4096 : S1x16x7x4096.Slices ![0, 0, 1, 0] S1x16x1x4096
  slices_S1x16x8x4102_o0_0_0_2_S1x16x8x4096 : S1x16x8x4102.Slices ![0, 0, 0, 2] S1x16x8x4096
  slices_S1x16x7x4096_o0_0_2_0_S1x16x1x4096 : S1x16x7x4096.Slices ![0, 0, 2, 0] S1x16x1x4096
  slices_S1x16x8x4102_o0_0_0_3_S1x16x8x4096 : S1x16x8x4102.Slices ![0, 0, 0, 3] S1x16x8x4096
  slices_S1x16x7x4096_o0_0_3_0_S1x16x1x4096 : S1x16x7x4096.Slices ![0, 0, 3, 0] S1x16x1x4096
  slices_S1x16x8x4102_o0_0_0_4_S1x16x8x4096 : S1x16x8x4102.Slices ![0, 0, 0, 4] S1x16x8x4096
  slices_S1x16x7x4096_o0_0_4_0_S1x16x1x4096 : S1x16x7x4096.Slices ![0, 0, 4, 0] S1x16x1x4096
  slices_S1x16x8x4102_o0_0_0_5_S1x16x8x4096 : S1x16x8x4102.Slices ![0, 0, 0, 5] S1x16x8x4096
  slices_S1x16x7x4096_o0_0_5_0_S1x16x1x4096 : S1x16x7x4096.Slices ![0, 0, 5, 0] S1x16x1x4096
  slices_S1x16x8x4102_o0_0_0_6_S1x16x8x4096 : S1x16x8x4102.Slices ![0, 0, 0, 6] S1x16x8x4096
  slices_S1x16x7x4096_o0_0_6_0_S1x16x1x4096 : S1x16x7x4096.Slices ![0, 0, 6, 0] S1x16x1x4096
  shapeCasts_S8x64x8x4096_S8x512x4096 : S8x64x8x4096.ShapeCasts S8x512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x8x4096.size a ≤ S8x64x8x4096.size a
  hwx0_0 : ∀ i : grid0.Coords, EltTy.bits .f32 = 32 ∨ (Rect.block (s := S8x64x8x4096) S1x16x8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x7x4096.size a ≤ S8x64x7x4096.size a
  hwx0_1 : ∀ i : grid0.Coords, EltTy.bits .f32 = 32 ∨ (Rect.block (s := S8x64x7x4096) S1x16x7x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x8x4096.size a ≤ S8x64x8x4096.size a
  hwx0_2 : ∀ i : grid0.Coords, EltTy.bits .f32 = 32 ∨ (Rect.block (s := S8x64x8x4096) S1x16x8x4096.size (cc0_transform_2 i) (hinb0_2 i)).WholeWords (EltTy.packing .f32)

variable [Facts₀]

abbrev win0_0 : Pipeline.Window sig grid0 :=
  Pipeline.Window.ofSpec (Memref.whole main_v0) S1x16x8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x7x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x8x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x4096 : Shape := ⟨3, ![8, 512, 4096]⟩
abbrev S8x64x7x4096 : Shape := ⟨4, ![8, 64, 7, 4096]⟩
abbrev S_ : Shape := ⟨0, ![]⟩
abbrev S8x512x4102 : Shape := ⟨3, ![8, 512, 4102]⟩
abbrev S8x64x8x7x4096 : Shape := ⟨5, ![8, 64, 8, 7, 4096]⟩
abbrev S8x512x7x4096 : Shape := ⟨4, ![8, 512, 7, 4096]⟩
abbrev S8x512x1x4096 : Shape := ⟨4, ![8, 512, 1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8x512x4096, .f32⟩
  | .hbm, ⟨1, _⟩ => ⟨S8x64x7x4096, .f32⟩
  | .hbm, ⟨2, _⟩ => ⟨S_, .i32⟩
  | .hbm, ⟨3, _⟩ => ⟨S_, .f32⟩
  | .hbm, ⟨4, _⟩ => ⟨S8x512x4102, .f32⟩
  | .hbm, ⟨5, _⟩ => ⟨S8x64x8x7x4096, .f32⟩
  | .hbm, ⟨6, _⟩ => ⟨S8x512x7x4096, .f32⟩
  | .hbm, ⟨7, _⟩ => ⟨S_, .f32⟩
  | .hbm, ⟨8, _⟩ => ⟨S8x512x4096, .f32⟩
  | .hbm, ⟨9, _⟩ => ⟨S8x512x4096, .f32⟩
  | .hbm, ⟨10, _⟩ => ⟨S8x512x1x4096, .f32⟩
  | .hbm, ⟨11, _⟩ => ⟨S8x512x4096, .f32⟩
  | .hbm, ⟨12, _⟩ => ⟨S8x512x4096, .f32⟩
  | .hbm, ⟨13, _⟩ => ⟨S8x512x4096, .f32⟩
  | .hbm, ⟨14, _⟩ => ⟨S8x512x4096, .f32⟩
  | .hbm, ⟨15, _⟩ => ⟨S8x512x1x4096, .f32⟩
  | .hbm, ⟨16, _⟩ => ⟨S8x512x4096, .f32⟩
  | .hbm, ⟨17, _⟩ => ⟨S8x512x4096, .f32⟩
  | .hbm, ⟨18, _⟩ => ⟨S8x512x4096, .f32⟩
  | .hbm, ⟨19, _⟩ => ⟨S8x512x4096, .f32⟩
  | .hbm, ⟨20, _⟩ => ⟨S8x512x1x4096, .f32⟩
  | .hbm, ⟨21, _⟩ => ⟨S8x512x4096, .f32⟩
  | .hbm, ⟨22, _⟩ => ⟨S8x512x4096, .f32⟩
  | .hbm, ⟨23, _⟩ => ⟨S8x512x4096, .f32⟩
  | .hbm, ⟨24, _⟩ => ⟨S8x512x4096, .f32⟩
  | .hbm, ⟨25, _⟩ => ⟨S8x512x1x4096, .f32⟩
  | .hbm, ⟨26, _⟩ => ⟨S8x512x4096, .f32⟩
  | .hbm, ⟨27, _⟩ => ⟨S8x512x4096, .f32⟩
  | .hbm, ⟨28, _⟩ => ⟨S8x512x4096, .f32⟩
  | .hbm, ⟨29, _⟩ => ⟨S8x512x4096, .f32⟩
  | .hbm, ⟨30, _⟩ => ⟨S8x512x1x4096, .f32⟩
  | .hbm, ⟨31, _⟩ => ⟨S8x512x4096, .f32⟩
  | .hbm, ⟨32, _⟩ => ⟨S8x512x4096, .f32⟩
  | .hbm, ⟨33, _⟩ => ⟨S8x512x4096, .f32⟩
  | .hbm, ⟨34, _⟩ => ⟨S8x512x4096, .f32⟩
  | .hbm, ⟨35, _⟩ => ⟨S8x512x1x4096, .f32⟩
  | .hbm, ⟨36, _⟩ => ⟨S8x512x4096, .f32⟩
  | .hbm, ⟨37, _⟩ => ⟨S8x512x4096, .f32⟩
  | .hbm, ⟨38, _⟩ => ⟨S8x512x4096, .f32⟩
  | .hbm, ⟨39, _⟩ => ⟨S8x512x4096, .f32⟩
  | .hbm, ⟨40, _⟩ => ⟨S8x512x1x4096, .f32⟩
  | .hbm, ⟨41, _⟩ => ⟨S8x512x4096, .f32⟩
  | .hbm, ⟨42, _⟩ => ⟨S8x512x4096, .f32⟩
  | .hbm, ⟨43, _⟩ => ⟨S8x512x4096, .f32⟩
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]

class Facts₀ : Prop where
  pads_S8x512x4096_S8x512x4102_000_000_330 : S8x512x4096.Pads (![0, 0, 3] : Fin 3 → Nat) ![0, 0, 3] ![0, 0, 0] S8x512x4102
  h_S_ : 0 < S_.numel
  bcast_S8x64x7x4096_S8x64x8x7x4096_0_1_3_4 : S8x64x7x4096.BroadcastsInDim S8x64x8x7x4096 (![0, 1, 3, 4] : Fin 4 → Fin S8x64x8x7x4096.rank)
  shapeCasts_S8x64x8x7x4096_S8x512x7x4096 : S8x64x8x7x4096.ShapeCasts S8x512x7x4096
  bcast_S_S8x512x4096 : S_.BroadcastsInDim S8x512x4096 (![] : Fin 0 → Fin S8x512x4096.rank)
  slices_S8x512x4102_S8x512x4096_0_0_0 : S8x512x4102.Slices ![0, 0, 0] S8x512x4096
  slices_S8x512x7x4096_S8x512x1x4096_0_0_0_0 : S8x512x7x4096.Slices ![0, 0, 0, 0] S8x512x1x4096
  shapeCasts_S8x512x1x4096_S8x512x4096 : S8x512x1x4096.ShapeCasts S8x512x4096
  slices_S8x512x4102_S8x512x4096_0_0_1 : S8x512x4102.Slices ![0, 0, 1] S8x512x4096
  slices_S8x512x7x4096_S8x512x1x4096_0_0_1_0 : S8x512x7x4096.Slices ![0, 0, 1, 0] S8x512x1x4096
  slices_S8x512x4102_S8x512x4096_0_0_2 : S8x512x4102.Slices ![0, 0, 2] S8x512x4096
  slices_S8x512x7x4096_S8x512x1x4096_0_0_2_0 : S8x512x7x4096.Slices ![0, 0, 2, 0] S8x512x1x4096
  slices_S8x512x4102_S8x512x4096_0_0_3 : S8x512x4102.Slices ![0, 0, 3] S8x512x4096
  slices_S8x512x7x4096_S8x512x1x4096_0_0_3_0 : S8x512x7x4096.Slices ![0, 0, 3, 0] S8x512x1x4096
  slices_S8x512x4102_S8x512x4096_0_0_4 : S8x512x4102.Slices ![0, 0, 4] S8x512x4096
  slices_S8x512x7x4096_S8x512x1x4096_0_0_4_0 : S8x512x7x4096.Slices ![0, 0, 4, 0] S8x512x1x4096
  slices_S8x512x4102_S8x512x4096_0_0_5 : S8x512x4102.Slices ![0, 0, 5] S8x512x4096
  slices_S8x512x7x4096_S8x512x1x4096_0_0_5_0 : S8x512x7x4096.Slices ![0, 0, 5, 0] S8x512x1x4096
  slices_S8x512x4102_S8x512x4096_0_0_6 : S8x512x4102.Slices ![0, 0, 6] S8x512x4096
  slices_S8x512x7x4096_S8x512x1x4096_0_0_6_0 : S8x512x7x4096.Slices ![0, 0, 6, 0] S8x512x1x4096

variable [Facts₀]

class Facts : Prop extends Facts₀ where

variable [Facts]
-- ==== Proof.LibPadRead.lean ====
/-
  A padded array read at an index (`stablehlo.pad` with no interior padding).

  `pad t lo hi interior x v` holds, at a result index `j`, the operand `x` where `j` minus the low padding is an
  operand index on every axis, and the padding value `v` elsewhere. With no interior padding the two cases are
  plain intervals: `j` is inside when `lo a ≤ j a < lo a + size a` on every axis `a`, and then reads `x` at
  `j - lo`; it is outside as soon as ONE axis leaves its interval, and then reads the padding value.
  The caller names the operand index by its coordinates and owes one linear equation per axis.
-/
import Idealize.ShloMosaic.PureOps.Ideal

namespace Cert.Lib.PadRead

open Idealize.ShloMosaic

variable {s t u : Shape} {α : Type}

/-- INSIDE: if on every axis the result coordinate is the low padding plus an operand coordinate `k a` (and the
    axis has no interior padding), the padded array reads the operand at `k`. -/
theorem pad_apply_inside (lo hi interior : Fin s.rank → Nat) (x : s.Idx → α) (v : u.Idx → α)
    (h : s.Pads lo hi interior t) (hu : 0 < u.numel) (j : t.Idx) (k : s.Idx)
    (hint : ∀ a, interior a = 0)
    (hk : ∀ a : Fin s.rank, (j (a.cast h.1)).val = lo a + (k a).val) :
    pad t lo hi interior x v h hu j = x k := by
  unfold pad
  have hin : ∀ a : Fin s.rank, lo a ≤ (j (a.cast h.1)).val
      ∧ ((j (a.cast h.1)).val - lo a) % (interior a + 1) = 0
      ∧ ((j (a.cast h.1)).val - lo a) / (interior a + 1) < s.size a := fun a => by
    rw [hint a, hk a, Nat.add_sub_cancel_left, Nat.zero_add, Nat.mod_one, Nat.div_one]
    exact ⟨Nat.le_add_right _ _, rfl, (k a).isLt⟩
  rw [dif_pos hin]
  refine congrArg x (funext fun a => Fin.ext ?_)
  show ((j (a.cast h.1)).val - lo a) / (interior a + 1) = (k a).val
  rw [hint a, hk a, Nat.add_sub_cancel_left, Nat.zero_add, Nat.div_one]

/-- OUTSIDE: if on ONE axis (without interior padding) the result coordinate is below the low padding or at or
    past the low padding plus the operand's extent, the padded array reads the padding value. -/
theorem pad_apply_outside (lo hi interior : Fin s.rank → Nat) (x : s.Idx → α) (v : u.Idx → α)
    (h : s.Pads lo hi interior t) (hu : 0 < u.numel) (j : t.Idx) (a : Fin s.rank)
    (hint : interior a = 0)
    (ha : (j (a.cast h.1)).val < lo a ∨ lo a + s.size a ≤ (j (a.cast h.1)).val) :
    pad t lo hi interior x v h hu j = v (Shape.Idx.first hu) := by
  unfold pad
  rw [dif_neg]
  intro hin
  obtain ⟨h1, -, h3⟩ := hin a
  rw [hint, Nat.zero_add, Nat.div_one] at h3
  omega

end Cert.Lib.PadRead
-- ==== Proof.RowConv.lean ====
/-
  The function both programs compute: a seven-tap convolution along the last axis, one row at a time.

  A ROW is `f : Fin 4096 → EReal`. Padded by three zeros on either side it is `padRow f : ℕ → EReal`, which reads
  `f (j - 3)` for `3 ≤ j < 4099` and the padding zero elsewhere. Against seven rows of weights `u k` the output row is
      convRow f u l = ((((((z + padRow f (l+0) · u 0 l) + padRow f (l+1) · u 1 l) + … ) + padRow f (l+6) · u 6 l),
  the products added from the left onto the accumulator's zero `z`, in the order both programs add them: no law of
  arithmetic is used, so nothing here needs the inputs to be finite.

  The array form: for `x : [8, 512, 4096]` and `w : [8, 64, 7, 4096]`, output entry `(b, c, l)` convolves row `(b, c)` of
  `x` with the weight rows `(b, c / 8, ·)` — eight consecutive channels share one weight channel (`conv`). The same
  array seen as `[8, 64, 8, 4096]`, channel `c = 8·q + g` at `(q, g)`, is `conv4`; the two are one array under the
  row-major reshape (`reshape_conv4`).
-/
import Idealize.ShloMosaic.PureOps.Ideal
import Idealize.ShloMosaic.Lib.ValueIdx
import Idealize.ShloMosaic.Lib.Pipeline.Value

noncomputable section

namespace Cert.RowConv

open Idealize.ShloMosaic Idealize.ShloMosaic.ValueIdx

/-- The argument `x`'s shape, the weights', and `x` with its channels split as 64 × 8. -/
abbrev SX : Shape := ⟨3, ![8, 512, 4096]⟩
abbrev SW : Shape := ⟨4, ![8, 64, 7, 4096]⟩
abbrev SX4 : Shape := ⟨4, ![8, 64, 8, 4096]⟩

/-- The padding value: the integer zero converted to a float. -/
def padZero : EReal := FloatOps.sitofp (F := Ideal) .f32 (0#32 : BitVec 32)
/-- The accumulator's start: the float whose word is zero. -/
def accZero : EReal := Ideal.ofBits .f32 0x00000000#32

/-- A row padded by three zeros on either side. -/
def padRow (f : Fin 4096 → EReal) (j : ℕ) : EReal :=
  if h : 3 ≤ j ∧ j < 4099 then f ⟨j - 3, by omega⟩ else padZero

/-- Tap `k` of the output at `l`: the padded row `k` places on, times weight row `k`. -/
def tap (f : Fin 4096 → EReal) (u : Fin 7 → Fin 4096 → EReal) (l : Fin 4096) (k : ℕ) (hk : k < 7) : EReal :=
  padRow f (l.val + k) * u ⟨k, hk⟩ l

/-- The output row at `l`: the seven taps added from the left onto the accumulator's zero. -/
def convRow (f : Fin 4096 → EReal) (u : Fin 7 → Fin 4096 → EReal) (l : Fin 4096) : EReal :=
  accZero + tap f u l 0 (by omega) + tap f u l 1 (by omega) + tap f u l 2 (by omega) + tap f u l 3 (by omega)
    + tap f u l 4 (by omega) + tap f u l 5 (by omega) + tap f u l 6 (by omega)

/-- Output entry `(b, c, l)`: row `(b, c)` of `x` against the weight rows of channel `c / 8`. -/
def conv (x : SX.Idx → EReal) (w : SW.Idx → EReal) : SX.Idx → EReal := fun i =>
  convRow (fun l' => x (ix3 (i 0) (i 1) l'))
    (fun k l' => w (ix4 (i 0) (⟨(i 1).val / 8, by have h : (i 1).val < 512 := (i 1).isLt; omega⟩ : Fin 64) k l')) (i 2)

/-- The same with the channels split: entry `(b, q, g, l)` convolves row `(b, q, g)` against weight channel `q`. -/
def conv4 (X : SX4.Idx → EReal) (w : SW.Idx → EReal) : SX4.Idx → EReal := fun i =>
  convRow (fun l' => X (ix4 (i 0) (i 1) (i 2) l')) (fun k l' => w (ix4 (i 0) (i 1) k l')) (i 3)

/-- Channel `c` of `[8, 512, 4096]` is `(c / 8, c % 8)` of `[8, 64, 8, 4096]` under the row-major reshape, … -/
theorem reshape_split_apply (x : SX.Idx → EReal) (h : SX.ShapeCasts SX4) (b : Fin 8) (q : Fin 64) (g : Fin 8) (l : Fin 4096) :
    shapeCast SX4 x h (ix4 b q g l) = x (ix3 b (⟨q.val * 8 + g.val, by omega⟩ : Fin 512) l) := by
  refine shapeCast_apply x h (ix4 b q g l) (ix3 b (⟨q.val * 8 + g.val, by omega⟩ : Fin 512) l) ?_
  rw [Shape.rowMajor_val_three, Shape.rowMajor_val_four]
  show (b.val * 512 + (q.val * 8 + g.val)) * 4096 + l.val = ((b.val * 64 + q.val) * 8 + g.val) * 4096 + l.val
  omega

/-- … and back. -/
theorem reshape_merge_apply (Y : SX4.Idx → EReal) (h : SX4.ShapeCasts SX) (b : Fin 8) (c : Fin 512) (l : Fin 4096) :
    shapeCast SX Y h (ix3 b c l) = Y (ix4 b (⟨c.val / 8, by omega⟩ : Fin 64) (⟨c.val % 8, by omega⟩ : Fin 8) l) := by
  refine shapeCast_apply Y h (ix3 b c l) (ix4 b (⟨c.val / 8, by omega⟩ : Fin 64) (⟨c.val % 8, by omega⟩ : Fin 8) l) ?_
  rw [Shape.rowMajor_val_three, Shape.rowMajor_val_four]
  show ((b.val * 64 + c.val / 8) * 8 + c.val % 8) * 4096 + l.val = (b.val * 512 + c.val) * 4096 + l.val
  omega

/-- THE TWO FORMS ARE ONE ARRAY: the split convolution of the split `x`, merged back, is the convolution of `x`. -/
theorem reshape_conv4 (x : SX.Idx → EReal) (w : SW.Idx → EReal) (h : SX.ShapeCasts SX4) (h' : SX4.ShapeCasts SX) :
    shapeCast SX (conv4 (shapeCast SX4 x h) w) h' = conv x w := by
  funext i
  obtain ⟨b, c, l, rfl⟩ : ∃ (b : Fin 8) (c : Fin 512) (l : Fin 4096), i = ix3 b c l := ⟨i 0, i 1, i 2, eq_ix3 i⟩
  rw [reshape_merge_apply]
  show convRow (fun l' => shapeCast SX4 x h (ix4 b (⟨c.val / 8, _⟩ : Fin 64) (⟨c.val % 8, _⟩ : Fin 8) l'))
      (fun k l' => w (ix4 b (⟨c.val / 8, _⟩ : Fin 64) k l')) l
    = convRow (fun l' => x (ix3 b c l')) (fun k l' => w (ix4 b (⟨c.val / 8, _⟩ : Fin 64) k l')) l
  have hrow : (fun l' => shapeCast SX4 x h (ix4 b (⟨c.val / 8, by omega⟩ : Fin 64) (⟨c.val % 8, by omega⟩ : Fin 8) l'))
      = fun l' => x (ix3 b c l') := by
    funext l'
    rw [reshape_split_apply]
    exact congrArg x (congrArg (fun c' => ix3 b c' l') (Fin.ext (by show c.val / 8 * 8 + c.val % 8 = c.val; omega)))
  rw [hrow]

end Cert.RowConv

end
-- ==== Proof.RefTaps.lean ====
/-
  The reference, read entry by entry, is the row convolution `Cert.RowConv.conv`.

  The reference pads `x` by three zeros on either side of its last axis, repeats every weight channel eight times
  (a broadcast to [8, 64, 8, 7, 4096] reshaped to [8, 512, 7, 4096]), and adds seven products onto a zero array:
  tap `k` multiplies the padded `x` shifted by `k` (a slice of the padded array at offset `k`) by tap `k` of the
  repeated weights (a slice of thickness one at `k`, its unit axis dropped). At entry `(b, c, l)` the first factor is
  the padded row `(b, c)` at `l + k`; the second is `w (b, c / 8, k, l)`, because row-major position `c` of the merged
  axis is `(c / 8, c % 8)` of the pair (weight channel, repeat) and the broadcast forgets the repeat.
-/
import proofs.«136961_j40106404610132_1_alg».proof.Proof.Gen.ReferenceIdeal.Read
import proofs.«136961_j40106404610132_1_alg».proof.Proof.LibPadRead
import proofs.«136961_j40106404610132_1_alg».proof.Proof.RowConv
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
open Cert.RowConv Cert.Lib.PadRead

/-- THE FIRST FACTOR OF TAP `k`: the padded `x`, sliced at offset `k` along the last axis, at `(b, c, l)` is the padded
    row `(b, c)` at `l + k` — inside `[3, 4099)` the row itself three places back, outside it the padding value. -/
theorem padded_slice_apply (k : ℕ) (hk : k < 7) (x : S8x512x4096.Idx → EReal) (v : S_.Idx → EReal) (hu : 0 < S_.numel)
    (hv : v (Shape.Idx.first hu) = padZero)
    (hp : S8x512x4096.Pads ![0, 0, 3] ![0, 0, 3] ![0, 0, 0] S8x512x4102)
    (hs : S8x512x4102.Slices ![0, 0, k] S8x512x4096) (b : Fin 8) (c : Fin 512) (l : Fin 4096) :
    extractStridedSlice S8x512x4096 ![0, 0, k] (pad S8x512x4102 ![0, 0, 3] ![0, 0, 3] ![0, 0, 0] x v hp hu) hs (ix3 b c l)
      = padRow (fun l' => x (ix3 b c l')) (l.val + k) := by
  refine (extractStridedSlice_apply ![0, 0, k] _ hs (ix3 b c l)
    (ix3 b c (⟨l.val + k, by omega⟩ : Fin 4102)) (fun a => match a with
      | ⟨0, _⟩ => by show b.val = 0 + b.val; omega
      | ⟨1, _⟩ => by show c.val = 0 + c.val; omega
      | ⟨2, _⟩ => by show l.val + k = k + l.val; omega)).trans ?_
  unfold padRow
  by_cases hin : 3 ≤ l.val + k ∧ l.val + k < 4099
  · rw [dif_pos hin]
    exact pad_apply_inside ![0, 0, 3] ![0, 0, 3] ![0, 0, 0] x v hp hu _
      (ix3 b c (⟨l.val + k - 3, by omega⟩ : Fin 4096))
      (fun a => match a with | ⟨0, _⟩ => rfl | ⟨1, _⟩ => rfl | ⟨2, _⟩ => rfl)
      (fun a => match a with
        | ⟨0, _⟩ => by show b.val = 0 + b.val; omega
        | ⟨1, _⟩ => by show c.val = 0 + c.val; omega
        | ⟨2, _⟩ => by show l.val + k = 3 + (l.val + k - 3); omega)
  · rw [dif_neg hin]
    refine (pad_apply_outside ![0, 0, 3] ![0, 0, 3] ![0, 0, 0] x v hp hu _ (2 : Fin 3) rfl ?_).trans hv
    show l.val + k < 3 ∨ 3 + 4096 ≤ l.val + k
    omega

/-- THE SECOND FACTOR OF TAP `k`: the weights repeated eight times per channel, tap `k` sliced out and its unit axis
    dropped, at `(b, c, l)` is `w (b, c / 8, k, l)`. -/
theorem repeated_weight_apply (k : ℕ) (hk : k < 7) (w : S8x64x7x4096.Idx → EReal)
    (hb : S8x64x7x4096.BroadcastsInDim S8x64x8x7x4096 ![0, 1, 3, 4])
    (hc1 : S8x64x8x7x4096.ShapeCasts S8x512x7x4096)
    (hs : S8x512x7x4096.Slices ![0, 0, k, 0] S8x512x1x4096)
    (hc2 : S8x512x1x4096.ShapeCasts S8x512x4096) (b : Fin 8) (c : Fin 512) (l : Fin 4096) :
    shapeCast S8x512x4096 (extractStridedSlice S8x512x1x4096 ![0, 0, k, 0]
        (shapeCast S8x512x7x4096 (broadcastInDim S8x64x8x7x4096 ![0, 1, 3, 4] hb w) hc1) hs) hc2 (ix3 b c l)
      = w (ix4 b (⟨c.val / 8, by omega⟩ : Fin 64) (⟨k, hk⟩ : Fin 7) l) := by
  refine (shapeCast_apply _ hc2 (ix3 b c l) (ix4 b c (0 : Fin 1) l) ?_).trans ?_
  · rw [Shape.rowMajor_val_four, Shape.rowMajor_val_three]
    show ((b.val * 512 + c.val) * 1 + 0) * 4096 + l.val = (b.val * 512 + c.val) * 4096 + l.val
    omega
  refine (extractStridedSlice_apply ![0, 0, k, 0] _ hs (ix4 b c (0 : Fin 1) l) (ix4 b c (⟨k, hk⟩ : Fin 7) l)
    (fun a => match a with
      | ⟨0, _⟩ => by show b.val = 0 + b.val; omega
      | ⟨1, _⟩ => by show c.val = 0 + c.val; omega
      | ⟨2, _⟩ => by show k = k + 0; omega
      | ⟨3, _⟩ => by show l.val = 0 + l.val; omega)).trans ?_
  refine (shapeCast_apply _ hc1 (ix4 b c (⟨k, hk⟩ : Fin 7) l)
    (ix5 b (⟨c.val / 8, by omega⟩ : Fin 64) (⟨c.val % 8, by omega⟩ : Fin 8) (⟨k, hk⟩ : Fin 7) l) ?_).trans ?_
  · rw [Shape.rowMajor_val_five, Shape.rowMajor_val_four]
    show (((b.val * 64 + c.val / 8) * 8 + c.val % 8) * 7 + k) * 4096 + l.val = ((b.val * 512 + c.val) * 7 + k) * 4096 + l.val
    omega
  exact broadcastInDim_apply ![0, 1, 3, 4] hb w _ (ix4 b (⟨c.val / 8, by omega⟩ : Fin 64) (⟨k, hk⟩ : Fin 7) l)
    (fun a => match a with
      | ⟨0, _⟩ => by show b.val = if (8 : Nat) = 1 then 0 else b.val; rw [if_neg (by decide)]
      | ⟨1, _⟩ => by show c.val / 8 = if (64 : Nat) = 1 then 0 else c.val / 8; rw [if_neg (by decide)]
      | ⟨2, _⟩ => by show k = if (7 : Nat) = 1 then 0 else k; rw [if_neg (by decide)]
      | ⟨3, _⟩ => by show l.val = if (4096 : Nat) = 1 then 0 else l.val; rw [if_neg (by decide)])

/-- The reference's padding value is the integer zero converted. -/
theorem pad_value : val_main_call0_v0 (F := Ideal) (Shape.Idx.first h_S_) = padZero := rfl

/-! ## The seven taps' factors, one line each -/

theorem x_tap0 (x : S8x512x4096.Idx → EReal) (b : Fin 8) (c : Fin 512) (l : Fin 4096) :
    val_main_v4 (F := Ideal) x (ix3 b c l) = padRow (fun l' => x (ix3 b c l')) (l.val + 0) := by
  unfold val_main_v4 val_main_v0
  exact padded_slice_apply 0 (by omega) x _ h_S_ pad_value _ _ b c l
theorem w_tap0 (w : S8x64x7x4096.Idx → EReal) (b : Fin 8) (c : Fin 512) (l : Fin 4096) :
    val_main_v6 (F := Ideal) w (ix3 b c l) = w (ix4 b (⟨c.val / 8, by omega⟩ : Fin 64) (⟨0, by omega⟩ : Fin 7) l) := by
  unfold val_main_v6 val_main_v5 val_main_v2 val_main_v1
  exact repeated_weight_apply 0 (by omega) w _ _ _ _ b c l

theorem x_tap1 (x : S8x512x4096.Idx → EReal) (b : Fin 8) (c : Fin 512) (l : Fin 4096) :
    val_main_v9 (F := Ideal) x (ix3 b c l) = padRow (fun l' => x (ix3 b c l')) (l.val + 1) := by
  unfold val_main_v9 val_main_v0
  exact padded_slice_apply 1 (by omega) x _ h_S_ pad_value _ _ b c l
theorem w_tap1 (w : S8x64x7x4096.Idx → EReal) (b : Fin 8) (c : Fin 512) (l : Fin 4096) :
    val_main_v11 (F := Ideal) w (ix3 b c l) = w (ix4 b (⟨c.val / 8, by omega⟩ : Fin 64) (⟨1, by omega⟩ : Fin 7) l) := by
  unfold val_main_v11 val_main_v10 val_main_v2 val_main_v1
  exact repeated_weight_apply 1 (by omega) w _ _ _ _ b c l

theorem x_tap2 (x : S8x512x4096.Idx → EReal) (b : Fin 8) (c : Fin 512) (l : Fin 4096) :
    val_main_v14 (F := Ideal) x (ix3 b c l) = padRow (fun l' => x (ix3 b c l')) (l.val + 2) := by
  unfold val_main_v14 val_main_v0
  exact padded_slice_apply 2 (by omega) x _ h_S_ pad_value _ _ b c l
theorem w_tap2 (w : S8x64x7x4096.Idx → EReal) (b : Fin 8) (c : Fin 512) (l : Fin 4096) :
    val_main_v16 (F := Ideal) w (ix3 b c l) = w (ix4 b (⟨c.val / 8, by omega⟩ : Fin 64) (⟨2, by omega⟩ : Fin 7) l) := by
  unfold val_main_v16 val_main_v15 val_main_v2 val_main_v1
  exact repeated_weight_apply 2 (by omega) w _ _ _ _ b c l

theorem x_tap3 (x : S8x512x4096.Idx → EReal) (b : Fin 8) (c : Fin 512) (l : Fin 4096) :
    val_main_v19 (F := Ideal) x (ix3 b c l) = padRow (fun l' => x (ix3 b c l')) (l.val + 3) := by
  unfold val_main_v19 val_main_v0
  exact padded_slice_apply 3 (by omega) x _ h_S_ pad_value _ _ b c l
theorem w_tap3 (w : S8x64x7x4096.Idx → EReal) (b : Fin 8) (c : Fin 512) (l : Fin 4096) :
    val_main_v21 (F := Ideal) w (ix3 b c l) = w (ix4 b (⟨c.val / 8, by omega⟩ : Fin 64) (⟨3, by omega⟩ : Fin 7) l) := by
  unfold val_main_v21 val_main_v20 val_main_v2 val_main_v1
  exact repeated_weight_apply 3 (by omega) w _ _ _ _ b c l

theorem x_tap4 (x : S8x512x4096.Idx → EReal) (b : Fin 8) (c : Fin 512) (l : Fin 4096) :
    val_main_v24 (F := Ideal) x (ix3 b c l) = padRow (fun l' => x (ix3 b c l')) (l.val + 4) := by
  unfold val_main_v24 val_main_v0
  exact padded_slice_apply 4 (by omega) x _ h_S_ pad_value _ _ b c l
theorem w_tap4 (w : S8x64x7x4096.Idx → EReal) (b : Fin 8) (c : Fin 512) (l : Fin 4096) :
    val_main_v26 (F := Ideal) w (ix3 b c l) = w (ix4 b (⟨c.val / 8, by omega⟩ : Fin 64) (⟨4, by omega⟩ : Fin 7) l) := by
  unfold val_main_v26 val_main_v25 val_main_v2 val_main_v1
  exact repeated_weight_apply 4 (by omega) w _ _ _ _ b c l

theorem x_tap5 (x : S8x512x4096.Idx → EReal) (b : Fin 8) (c : Fin 512) (l : Fin 4096) :
    val_main_v29 (F := Ideal) x (ix3 b c l) = padRow (fun l' => x (ix3 b c l')) (l.val + 5) := by
  unfold val_main_v29 val_main_v0
  exact padded_slice_apply 5 (by omega) x _ h_S_ pad_value _ _ b c l
theorem w_tap5 (w : S8x64x7x4096.Idx → EReal) (b : Fin 8) (c : Fin 512) (l : Fin 4096) :
    val_main_v31 (F := Ideal) w (ix3 b c l) = w (ix4 b (⟨c.val / 8, by omega⟩ : Fin 64) (⟨5, by omega⟩ : Fin 7) l) := by
  unfold val_main_v31 val_main_v30 val_main_v2 val_main_v1
  exact repeated_weight_apply 5 (by omega) w _ _ _ _ b c l

theorem x_tap6 (x : S8x512x4096.Idx → EReal) (b : Fin 8) (c : Fin 512) (l : Fin 4096) :
    val_main_v34 (F := Ideal) x (ix3 b c l) = padRow (fun l' => x (ix3 b c l')) (l.val + 6) := by
  unfold val_main_v34 val_main_v0
  exact padded_slice_apply 6 (by omega) x _ h_S_ pad_value _ _ b c l
theorem w_tap6 (w : S8x64x7x4096.Idx → EReal) (b : Fin 8) (c : Fin 512) (l : Fin 4096) :
    val_main_v36 (F := Ideal) w (ix3 b c l) = w (ix4 b (⟨c.val / 8, by omega⟩ : Fin 64) (⟨6, by omega⟩ : Fin 7) l) := by
  unfold val_main_v36 val_main_v35 val_main_v2 val_main_v1
  exact repeated_weight_apply 6 (by omega) w _ _ _ _ b c l

/-- The accumulator starts at the float whose word is zero, everywhere. -/
theorem acc_start (i : S8x512x4096.Idx) : val_main_v3 (F := Ideal) i = accZero := by
  rw [val_main_v3_apply]; rfl

/-- THE REFERENCE IS THE ROW CONVOLUTION: its last stage, as a function of the two arguments, is `conv`. -/
theorem reference_eq_conv (x : S8x512x4096.Idx → EReal) (w : S8x64x7x4096.Idx → EReal) :
    val_main_v38 (F := Ideal) x w = conv x w := by
  funext i
  obtain ⟨b, c, l, rfl⟩ : ∃ (b : Fin 8) (c : Fin 512) (l : Fin 4096), i = ix3 b c l := ⟨i 0, i 1, i 2, eq_ix3 i⟩
  rw [val_main_v38_apply, val_main_v33_apply, val_main_v28_apply, val_main_v23_apply, val_main_v18_apply, val_main_v13_apply, val_main_v8_apply,
    val_main_v37_apply, val_main_v32_apply, val_main_v27_apply, val_main_v22_apply, val_main_v17_apply, val_main_v12_apply, val_main_v7_apply,
    acc_start, x_tap0, w_tap0, x_tap1, w_tap1, x_tap2, w_tap2, x_tap3, w_tap3, x_tap4, w_tap4, x_tap5, w_tap5, x_tap6, w_tap6]
  rfl

end Cert.ReferenceIdeal.RefValue

end
-- ==== Proof.KernelTaps.lean ====
/-
  The kernel body's result, read entry by entry, is the row convolution of its two blocks.

  At a grid point the body holds a block `x0 : [1, 16, 8, 4096]` of the (channel-split) input and a block
  `x1 : [1, 16, 7, 4096]` of the weights. It pads `x0` along its last axis by joining three zeros before and three
  after (two concatenations, to lengths 4099 and 4102), and adds seven products onto a zero block: tap `k` multiplies
  the padded block sliced at offset `k` by tap `k` of the weights (a slice of thickness one) spread over the eight
  rows that share the weight channel. At entry `(0, a, g, l)` the first factor is the padded row `(a, g)` at `l + k`
  — the row itself three places back inside `[3, 4099)`, zero in the two joined ends — and the second is
  `x1 (0, a, k, l)`, whatever `g` is.
-/
import proofs.«136961_j40106404610132_1_alg».proof.Proof.Gen.KernelIdeal.Skeleton
import proofs.«136961_j40106404610132_1_alg».proof.Proof.RowConv
import Idealize.ShloMosaic.Lib.ValueIdx
import Idealize.ShloMosaic.Lib.Pipeline.Value

noncomputable section

namespace Cert.KernelIdeal.BodyValue

open Cert.KernelIdeal Cert.KernelIdeal.Gen Idealize.ShloMosaic Idealize.ShloMosaic.ValueIdx
open Cert.RowConv

/-- THE PADDED BLOCK at `(0, a, g, j)`: three zeros, the row, three zeros. -/
theorem padded_block_apply (x0 : S1x16x8x4096.Idx → EReal) (z : EReal)
    (hc : S1x16x8x4096.ShapeCasts S1x16x8x4096)
    (h5 : Shape.Concatenates [S1x16x8x3, S1x16x8x4096] S1x16x8x4099 3)
    (h7 : Shape.Concatenates [S1x16x8x4099, S1x16x8x3] S1x16x8x4102 3)
    (a : Fin 16) (g : Fin 8) (j : ℕ) (hj : j < 4102) :
    concatenate S1x16x8x4102 3
        [⟨S1x16x8x4099, concatenate S1x16x8x4099 3
            [⟨S1x16x8x3, broadcast S1x16x8x3 z⟩, ⟨S1x16x8x4096, shapeCast S1x16x8x4096 x0 hc⟩] h5⟩,
          ⟨S1x16x8x3, broadcast S1x16x8x3 z⟩] h7 (ix4 (0 : Fin 1) a g (⟨j, hj⟩ : Fin 4102))
      = if h : 3 ≤ j ∧ j < 4099 then x0 (ix4 (0 : Fin 1) a g (⟨j - 3, by omega⟩ : Fin 4096)) else z := by
  by_cases h99 : j < 4099
  · -- in the first piece of the outer join: the row with its three leading zeros
    refine (concatenate_pair_apply_left 3 _ _ h7 (ix4 (0 : Fin 1) a g (⟨j, hj⟩ : Fin 4102)) rfl
      (ix4 (0 : Fin 1) a g (⟨j, h99⟩ : Fin 4099))
      (fun b => match b with
        | ⟨0, _⟩ => by show (0 : ℕ) = 0; rfl
        | ⟨1, _⟩ => by show a.val = a.val; rfl
        | ⟨2, _⟩ => by show g.val = g.val; rfl
        | ⟨3, _⟩ => by show j = j; rfl)).trans ?_
    by_cases h3 : j < 3
    · rw [dif_neg (by omega)]
      exact concatenate_pair_apply_left 3 _ _ h5 (ix4 (0 : Fin 1) a g (⟨j, h99⟩ : Fin 4099)) rfl
        (ix4 (0 : Fin 1) a g (⟨j, h3⟩ : Fin 3))
        (fun b => match b with
          | ⟨0, _⟩ => by show (0 : ℕ) = 0; rfl
          | ⟨1, _⟩ => by show a.val = a.val; rfl
          | ⟨2, _⟩ => by show g.val = g.val; rfl
          | ⟨3, _⟩ => by show j = j; rfl)
    · rw [dif_pos ⟨by omega, h99⟩]
      refine (concatenate_pair_apply_right 3 _ _ h5 (ix4 (0 : Fin 1) a g (⟨j, h99⟩ : Fin 4099)) rfl rfl
        (ix4 (0 : Fin 1) a g (⟨j - 3, by omega⟩ : Fin 4096))
        (fun b hb => match b, hb with
          | ⟨0, _⟩, _ => by show (0 : ℕ) = 0; rfl
          | ⟨1, _⟩, _ => by show a.val = a.val; rfl
          | ⟨2, _⟩, _ => by show g.val = g.val; rfl
          | ⟨3, _⟩, hb => absurd (Fin.ext rfl) hb)
        (by show j - 3 + 3 = j; omega)).trans ?_
      rw [shapeCast_self]
  · -- in the second piece of the outer join: the three trailing zeros
    rw [dif_neg (by omega)]
    exact concatenate_pair_apply_right 3 _ _ h7 (ix4 (0 : Fin 1) a g (⟨j, hj⟩ : Fin 4102)) rfl rfl
      (ix4 (0 : Fin 1) a g (⟨j - 4099, by omega⟩ : Fin 3))
      (fun b hb => match b, hb with
        | ⟨0, _⟩, _ => by show (0 : ℕ) = 0; rfl
        | ⟨1, _⟩, _ => by show a.val = a.val; rfl
        | ⟨2, _⟩, _ => by show g.val = g.val; rfl
        | ⟨3, _⟩, hb => absurd (Fin.ext rfl) hb)
      (by show j - 4099 + 4099 = j; omega)

/-- THE FIRST FACTOR OF TAP `k`: the padded block sliced at offset `k`, at `(0, a, g, l)`, is the padded row `(a, g)`
    at `l + k`. -/
theorem block_x_tap (k : ℕ) (hk : k < 7) (x0 : S1x16x8x4096.Idx → EReal) (z : EReal) (hz : z = padZero)
    (hc : S1x16x8x4096.ShapeCasts S1x16x8x4096)
    (h5 : Shape.Concatenates [S1x16x8x3, S1x16x8x4096] S1x16x8x4099 3)
    (h7 : Shape.Concatenates [S1x16x8x4099, S1x16x8x3] S1x16x8x4102 3)
    (hs : S1x16x8x4102.Slices ![0, 0, 0, k] S1x16x8x4096)
    (a : Fin 16) (g : Fin 8) (l : Fin 4096) :
    extractStridedSlice S1x16x8x4096 ![0, 0, 0, k]
        (concatenate S1x16x8x4102 3
          [⟨S1x16x8x4099, concatenate S1x16x8x4099 3
              [⟨S1x16x8x3, broadcast S1x16x8x3 z⟩, ⟨S1x16x8x4096, shapeCast S1x16x8x4096 x0 hc⟩] h5⟩,
            ⟨S1x16x8x3, broadcast S1x16x8x3 z⟩] h7) hs (ix4 (0 : Fin 1) a g l)
      = padRow (fun l' => x0 (ix4 (0 : Fin 1) a g l')) (l.val + k) := by
  refine (extractStridedSlice_apply ![0, 0, 0, k] _ hs (ix4 (0 : Fin 1) a g l)
    (ix4 (0 : Fin 1) a g (⟨l.val + k, by omega⟩ : Fin 4102)) (fun d => match d with
      | ⟨0, _⟩ => by show (0 : ℕ) = 0 + 0; omega
      | ⟨1, _⟩ => by show a.val = 0 + a.val; omega
      | ⟨2, _⟩ => by show g.val = 0 + g.val; omega
      | ⟨3, _⟩ => by show l.val + k = k + l.val; omega)).trans ?_
  rw [padded_block_apply x0 z hc h5 h7 a g (l.val + k) (by omega), hz]
  rfl

/-- THE SECOND FACTOR OF TAP `k`: tap `k` of the weight block, spread over the eight rows of a channel, at
    `(0, a, g, l)` is `x1 (0, a, k, l)`. -/
theorem block_w_tap (k : ℕ) (hk : k < 7) (x1 : S1x16x7x4096.Idx → EReal)
    (hs : S1x16x7x4096.Slices ![0, 0, k, 0] S1x16x1x4096)
    (hb : S1x16x1x4096.Broadcasts S1x16x8x4096) (a : Fin 16) (g : Fin 8) (l : Fin 4096) :
    broadcastTo S1x16x8x4096 (extractStridedSlice S1x16x1x4096 ![0, 0, k, 0] x1 hs) hb (ix4 (0 : Fin 1) a g l)
      = x1 (ix4 (0 : Fin 1) a (⟨k, hk⟩ : Fin 7) l) := by
  refine (broadcastTo_apply _ hb (ix4 (0 : Fin 1) a g l) (ix4 (0 : Fin 1) a (0 : Fin 1) l) (fun d => match d with
      | ⟨0, _⟩ => by show (0 : ℕ) = if (1 : ℕ) = 1 then 0 else 0; rw [if_pos rfl]
      | ⟨1, _⟩ => by show a.val = if (16 : ℕ) = 1 then 0 else a.val; rw [if_neg (by decide)]
      | ⟨2, _⟩ => by show (0 : ℕ) = if (1 : ℕ) = 1 then 0 else g.val; rw [if_pos rfl]
      | ⟨3, _⟩ => by show l.val = if (4096 : ℕ) = 1 then 0 else l.val; rw [if_neg (by decide)])).trans ?_
  exact extractStridedSlice_apply ![0, 0, k, 0] x1 hs (ix4 (0 : Fin 1) a (0 : Fin 1) l) (ix4 (0 : Fin 1) a (⟨k, hk⟩ : Fin 7) l)
    (fun d => match d with
      | ⟨0, _⟩ => by show (0 : ℕ) = 0 + 0; omega
      | ⟨1, _⟩ => by show a.val = 0 + a.val; omega
      | ⟨2, _⟩ => by show k = k + 0; omega
      | ⟨3, _⟩ => by show l.val = 0 + l.val; omega)

/-- THE BODY'S RESULT at `(0, a, g, l)` is the row convolution of row `(a, g)` of its input block with the weight rows
    `(a, ·)` of its weight block. -/
theorem payload_apply (x0 : Vec Ideal S1x16x8x4096 .f32) (x1 : Vec Ideal S1x16x7x4096 .f32)
    (a : Fin 16) (g : Fin 8) (l : Fin 4096) :
    k0_pay1 x0 x1 (ix4 (0 : Fin 1) a g l)
      = convRow (fun l' => x0 (ix4 (0 : Fin 1) a g l')) (fun k l' => x1 (ix4 (0 : Fin 1) a k l')) l := by
  unfold k0_pay1
  simp only [addf_apply, mulf_apply, broadcast_apply]
  rw [block_x_tap 0 (by omega) x0 (Scalar.sitofp (F := Ideal) .f32 0#32) rfl _ _ _ _ a g l, block_w_tap 0 (by omega) x1 _ _ a g l,
    block_x_tap 1 (by omega) x0 (Scalar.sitofp (F := Ideal) .f32 0#32) rfl _ _ _ _ a g l, block_w_tap 1 (by omega) x1 _ _ a g l,
    block_x_tap 2 (by omega) x0 (Scalar.sitofp (F := Ideal) .f32 0#32) rfl _ _ _ _ a g l, block_w_tap 2 (by omega) x1 _ _ a g l,
    block_x_tap 3 (by omega) x0 (Scalar.sitofp (F := Ideal) .f32 0#32) rfl _ _ _ _ a g l, block_w_tap 3 (by omega) x1 _ _ a g l,
    block_x_tap 4 (by omega) x0 (Scalar.sitofp (F := Ideal) .f32 0#32) rfl _ _ _ _ a g l, block_w_tap 4 (by omega) x1 _ _ a g l,
    block_x_tap 5 (by omega) x0 (Scalar.sitofp (F := Ideal) .f32 0#32) rfl _ _ _ _ a g l, block_w_tap 5 (by omega) x1 _ _ a g l,
    block_x_tap 6 (by omega) x0 (Scalar.sitofp (F := Ideal) .f32 0#32) rfl _ _ _ _ a g l, block_w_tap 6 (by omega) x1 _ _ a g l]
  rfl

end Cert.KernelIdeal.BodyValue

end
-- ==== Proof.KernelArray.lean ====
/-
  The kernel's whole run: its result array is the row convolution of its two arguments.

  The program reshapes `x : [8, 512, 4096]` to `[8, 64, 8, 4096]` (channel `c = 8·q + g` at `(q, g)`), runs the body over
  a grid of 8 × 4 points — point `(p, r)` holds batch `p` and the sixteen weight channels `16·r … 16·r + 15`: block
  `(p, r, 0, 0)` of the split input, of the weights and of the output, each of extent `[1, 16, ·, 4096]` — and reshapes
  the output back to `[8, 512, 4096]`.
  * What a point writes back is its block of `conv4` of the two arrays the region finds: the body's result at
    `(0, a, g, l)` is the row convolution of its blocks (the payload lemma), and row `(a, g)` of the input block is row
    `(p, 16·r + a, g)` of the split input, weight row `(a, k)` of the weight block is weight row `(p, 16·r + a, k)`.
  * The 32 blocks tile the output array (index `(b, q, g, l)` lies in the block of the point with `p = b`,
    `r = q / 16`), so the array after the region IS `conv4`.
  * The reshape before the region makes the split input the row-major reshape of `x`, the reshape after it merges the
    channels back; the split convolution of the split `x`, merged, is the convolution of `x` (`reshape_conv4`).
-/
import proofs.«136961_j40106404610132_1_alg».proof.Proof.Gen.KernelIdeal.Frame
import proofs.«136961_j40106404610132_1_alg».proof.Proof.KernelTaps
import proofs.«136961_j40106404610132_1_alg».proof.Proof.RowConv
import Idealize.ShloMosaic.Lib.ValueIdx
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.RowConv Cert.KernelIdeal.BodyValue

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-! ## One point -/

/-- The body's result over blocks that are rows of two arrays `X`, `W` — input row `(a, g)` is row `(p, 16·r + a, g)`
    of `X`, weight row `(a, k)` is row `(p, 16·r + a, k)` of `W` — is the block `(p, r)` of `conv4 X W`. -/
theorem point_conv (X : SX4.Idx → EReal) (W : SW.Idx → EReal)
    (x0 : Vec Ideal S1x16x8x4096 .f32) (x1 : Vec Ideal S1x16x7x4096 .f32) (p : Fin 8) (r : Fin 4)
    (h0 : ∀ (a : Fin 16) (g : Fin 8) (l : Fin 4096),
      x0 (ix4 (0 : Fin 1) a g l) = X (ix4 p (⟨r.val * 16 + a.val, by omega⟩ : Fin 64) g l))
    (h1 : ∀ (a : Fin 16) (k : Fin 7) (l : Fin 4096),
      x1 (ix4 (0 : Fin 1) a k l) = W (ix4 p (⟨r.val * 16 + a.val, by omega⟩ : Fin 64) k l))
    (y0 : Fin 1) (a : Fin 16) (g : Fin 8) (l : Fin 4096) :
    k0_pay1 x0 x1 (ix4 y0 a g l) = conv4 X W (ix4 p (⟨r.val * 16 + a.val, by omega⟩ : Fin 64) g l) := by
  obtain rfl : y0 = 0 := Subsingleton.elim _ _
  rw [payload_apply]
  show _ = convRow (fun l' => X (ix4 p (⟨r.val * 16 + a.val, _⟩ : Fin 64) g l'))
    (fun k l' => W (ix4 p (⟨r.val * 16 + a.val, _⟩ : Fin 64) k l')) l
  rw [show (fun l' => x0 (ix4 (0 : Fin 1) a g l')) = fun l' => X (ix4 p (⟨r.val * 16 + a.val, by omega⟩ : Fin 64) g l')
      from funext fun l' => h0 a g l',
    show (fun k l' => x1 (ix4 (0 : Fin 1) a k l')) = fun k l' => W (ix4 p (⟨r.val * 16 + a.val, by omega⟩ : Fin 64) k l')
      from funext fun k => funext fun l' => h1 a k l']

/-- The same at any index `y` of the block, its coordinates read off. -/
theorem point_conv_at (X : SX4.Idx → EReal) (W : SW.Idx → EReal)
    (x0 : Vec Ideal S1x16x8x4096 .f32) (x1 : Vec Ideal S1x16x7x4096 .f32) (p : Fin 8) (r : Fin 4)
    (h0 : ∀ (a : Fin 16) (g : Fin 8) (l : Fin 4096),
      x0 (ix4 (0 : Fin 1) a g l) = X (ix4 p (⟨r.val * 16 + a.val, by omega⟩ : Fin 64) g l))
    (h1 : ∀ (a : Fin 16) (k : Fin 7) (l : Fin 4096),
      x1 (ix4 (0 : Fin 1) a k l) = W (ix4 p (⟨r.val * 16 + a.val, by omega⟩ : Fin 64) k l))
    (y : S1x16x8x4096.Idx) :
    k0_pay1 x0 x1 y = conv4 X W (ix4 p
      (⟨r.val * 16 + (y 1).val, by have h : (y 1).val < 16 := (y 1).isLt; omega⟩ : Fin 64)
      (⟨(y 2).val, (y 2).isLt⟩ : Fin 8) (⟨(y 3).val, (y 3).isLt⟩ : Fin 4096)) := by
  obtain ⟨y0, a, g, l, rfl⟩ : ∃ (y0 : Fin 1) (a : Fin 16) (g : Fin 8) (l : Fin 4096), y = ix4 y0 a g l :=
    ⟨y 0, y 1, y 2, y 3, eq_ix4 y⟩
  exact point_conv X W x0 x1 p r h0 h1 y0 a g l

/-! ## The index maps, decided over the 32 points -/

/-- The three windows move together: block `(p, r, 0, 0)` at the point with coordinates `(p, r)`. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) < 8 ∧ win0_2.index t (1 : Fin 4) < 4 :=
  (by decide +kernel : ∀ t : Fin grid0.N, _)

/-- Every block `(p, r, 0, 0)` is some point's. -/
theorem idx_onto : ∀ (p : Fin 8) (r : Fin 4), ∃ t : Fin cfg0.N, win0_2.index t = ![p.val, r.val, 0, 0] :=
  (by decide +kernel : ∀ (p : Fin 8) (r : Fin 4), ∃ t : Fin grid0.N, win0_2.index t = ![p.val, r.val, 0, 0])

/-! ## What a point writes back -/

/-- WHAT POINT `t` WRITES BACK is block `t` of `conv4` of the split input and the weights as the region finds them. -/
theorem flushed_eq (c : Dev nD) (t : Fin cfg0.N) :
    (dats m 0 c).flushed 2 t
      = ((cfg0.win 2).blk t).view.read (Elt Ideal) (conv4 (V m c main_v0) (V m c main_arg1)) := by
  show (cfg0.win 2).cut (grid0.coords t) ((dats m 0 c).after 2 t) = _
  rw [after0_2]
  unfold out0_2
  rw [View.canon_unit_zero zero_offsets]
  simp only [View.ld_unit_zero (S := S1x16x8x4096) zero_offsets, View.ld_unit_zero (S := S1x16x7x4096) zero_offsets]
  obtain ⟨e00, e01, e02, e03, e10, e11, e12, e13, e22, e23, b0, b1⟩ := idx_facts t
  funext j
  show k0_pay1 (iblk m c 0 t) (iblk m c 1 t) j
    = conv4 (V m c main_v0) (V m c main_arg1) (((cfg0.win 2).blk t).view.emb j)
  have hj0 : (j 0).val < 1 := (j 0).isLt
  have hj1 : (j 1).val < 16 := (j 1).isLt
  have hj2 : (j 2).val < 8 := (j 2).isLt
  have hj3 : (j 3).val < 4096 := (j 3).isLt
  refine (point_conv_at (V m c main_v0) (V m c main_arg1) (iblk m c 0 t) (iblk m c 1 t)
    ⟨win0_2.index t (0 : Fin 4), b0⟩ ⟨win0_2.index t (1 : Fin 4), b1⟩ ?_ ?_ j).trans ?_
  · intro a g l
    show V m c main_v0 (((cfg0.win 0).blk t).view.emb (ix4 (0 : Fin 1) a g l)) = _
    refine congrArg (V m c main_v0) (funext fun d => Fin.ext ?_)
    match d with
    | ⟨0, _⟩ => show win0_0.index t (0 : Fin 4) * 1 + 1 * 0 = win0_2.index t (0 : Fin 4); omega
    | ⟨1, _⟩ => show win0_0.index t (1 : Fin 4) * 16 + 1 * a.val = win0_2.index t (1 : Fin 4) * 16 + a.val; omega
    | ⟨2, _⟩ => show win0_0.index t (2 : Fin 4) * 8 + 1 * g.val = g.val; omega
    | ⟨3, _⟩ => show win0_0.index t (3 : Fin 4) * 4096 + 1 * l.val = l.val; omega
  · intro a k l
    show V m c main_arg1 (((cfg0.win 1).blk t).view.emb (ix4 (0 : Fin 1) a k l)) = _
    refine congrArg (V m c main_arg1) (funext fun d => Fin.ext ?_)
    match d with
    | ⟨0, _⟩ => show win0_1.index t (0 : Fin 4) * 1 + 1 * 0 = win0_2.index t (0 : Fin 4); omega
    | ⟨1, _⟩ => show win0_1.index t (1 : Fin 4) * 16 + 1 * a.val = win0_2.index t (1 : Fin 4) * 16 + a.val; omega
    | ⟨2, _⟩ => show win0_1.index t (2 : Fin 4) * 7 + 1 * k.val = k.val; omega
    | ⟨3, _⟩ => show win0_1.index t (3 : Fin 4) * 4096 + 1 * l.val = l.val; omega
  · refine congrArg (conv4 (V m c main_v0) (V m c main_arg1)) (funext fun d => Fin.ext ?_)
    match d with
    | ⟨0, _⟩ => show win0_2.index t (0 : Fin 4) = win0_2.index t (0 : Fin 4) * 1 + 1 * (j 0).val; omega
    | ⟨1, _⟩ => show win0_2.index t (1 : Fin 4) * 16 + (j 1).val = win0_2.index t (1 : Fin 4) * 16 + 1 * (j 1).val; omega
    | ⟨2, _⟩ => show (j 2).val = win0_2.index t (2 : Fin 4) * 8 + 1 * (j 2).val; omega
    | ⟨3, _⟩ => show (j 3).val = win0_2.index t (3 : Fin 4) * 4096 + 1 * (j 3).val; omega

/-! ## The blocks tile the output array -/

/-- An index of the output array is in point `t`'s block iff each coordinate is in the block's range on its axis. -/
theorem mem_blk (t : Fin cfg0.N) (i : S8x64x8x4096.Idx) :
    i ∈ ((cfg0.win 2).blk t).view.set ↔ ∀ a : Fin 4, win0_2.index t a * S1x16x8x4096.size a ≤ (i a).val
      ∧ (i a).val < win0_2.index t a * S1x16x8x4096.size a + S1x16x8x4096.size a := by
  show i ∈ ((View.whole main_v1).slice (win0_2.rect t)).set ↔ _
  rw [View.set_slice_whole, Rect.mem_set_unit]
  exact Iff.rfl

/-- Every index of the output array is in the block of the point holding its batch and its group of sixteen weight
    channels. -/
theorem covered (i : S8x64x8x4096.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 8 := (i 2).isLt
  have hi3 : (i 3).val < 4096 := (i 3).isLt
  obtain ⟨t, ht⟩ := idx_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 8 ≤ (i 2).val ∧ (i 2).val < win0_2.index t (2 : Fin 4) * 8 + 8; omega
  | ⟨3, _⟩ => show win0_2.index t (3 : Fin 4) * 4096 ≤ (i 3).val ∧ (i 3).val < win0_2.index t (3 : Fin 4) * 4096 + 4096; omega

/-- THE OUTPUT ARRAY after the region is `conv4` of the split input and the weights as the region finds them. -/
theorem region_result (c : Dev nD) :
    (dats m 0 c).arrAt 2 cfg0.N = conv4 (V m c main_v0) (V m c main_arg1) :=
  (dats m 0 c).arrAt_eq_of_cover 2 _ (fun t _ => flushed_eq m c t) covered

/-! ## The reshapes around the region -/

/-- The region finds the split input as the row-major reshape of `x`. -/
theorem split_input (c : Dev nD) :
    (V m c main_v0 : S8x64x8x4096.Idx → EReal)
      = shapeCast S8x64x8x4096 (m ((c : Thread nD τ).loc main_arg0)) shapeCasts_S8x512x4096_S8x64x8x4096 := by
  show StableHlo.after hostOps0 (fun b => m (c, b)) (Proc.devRef .tc main_v0) = _
  after_results
  rfl

/-- The program's result is the output array with its channels merged back. -/
theorem merged_output (c : Dev nD) :
    (Pipeline.afterTail₀ cfgs (dats m) 0 (V0 m) [hostOps1] c main_v2 : S8x512x4096.Idx → EReal)
      = shapeCast S8x512x4096 ((dats m 0 c).arrAt 2 cfg0.N) shapeCasts_S8x64x8x4096_S8x512x4096 := by
  unfold Pipeline.afterTail₀
  show StableHlo.after hostOps1 _ (Proc.devRef .tc main_v2) = _
  after_results
  rw [Pipeline.withArrays_arr spec0 launch0.win.arr_inj c _ _ 2]
  rfl

/-- THE RESULT: the row convolution of the two arguments. -/
theorem result_eq (c : Dev nD) :
    (Pipeline.afterTail₀ cfgs (dats m) 0 (V0 m) [hostOps1] c main_v2 : S8x512x4096.Idx → EReal)
      = conv (m ((c : Thread nD τ).loc main_arg0)) (m ((c : Thread nD τ).loc main_arg1)) := by
  rw [merged_output, region_result, split_input, V_main_arg1]
  exact reshape_conv4 _ _ _ _

/-! ## The run -/

/-- Every weakly fair execution of the program terminates with its result at the row convolution of its arguments,
    and the arguments unchanged. -/
theorem run : θ_run defs (onTc (τ := τ) (main (F := Ideal))) ⟨m, fun _ => 0, ρ⟩ fun r => ∀ c : Dev nD,
      r.2.mem ((c.tc : Thread nD τ).loc main_v2)
        = conv (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.ArrayValue

end
-- ==== Proof.lean ====
/-
  A dynamic grouped depthwise convolution along the last axis, as a kernel and as plain array code, is ONE function
  of its two arguments on the extended reals.

  For `x : [8, 512, 4096]` and weights `w : [8, 64, 7, 4096]` both programs compute, at entry `(b, c, l)`,
      ((((((z + P(l+0)·w(b, c/8, 0, l)) + P(l+1)·w(b, c/8, 1, l)) + …) + P(l+6)·w(b, c/8, 6, l)),
  where `P` is row `(b, c)` of `x` padded by three zeros on either side and `z` is the accumulator's zero
  (`Cert.RowConv.conv`). The seven products are added in the same order on both sides, so the equality uses no law
  of arithmetic and never opens the precondition; what differs is only how each side lays the arrays out:
  * the reference pads `x`, repeats each weight channel eight times, and slices (Proof/RefTaps.lean, over the
    reference's generated run and its stage-by-stage reads);
  * the kernel splits the channels as 64 × 8, runs 8 × 4 grid points each holding one batch and sixteen weight
    channels, pads each block by joining zeros, spreads each weight row over the eight rows that share it, and merges
    the channels back (Proof/KernelTaps.lean for one point, Proof/KernelArray.lean for the grid and the two reshapes,
    over the kernel's generated frame run).
  The three frames are the generated ones (the reference's is its generated run with the result dropped); the ideal
  pass rewrote nothing, so `preserves` has nothing to say.
-/
import proofs.«136961_j40106404610132_1_alg».proof.Defs
import proofs.«136961_j40106404610132_1_alg».proof.Proof.Gen.Kernel
import proofs.«136961_j40106404610132_1_alg».proof.Proof.Gen.Kernel.Skeleton
import proofs.«136961_j40106404610132_1_alg».proof.Proof.Gen.Kernel.Launch
import proofs.«136961_j40106404610132_1_alg».proof.Proof.Gen.Kernel.Points
import proofs.«136961_j40106404610132_1_alg».proof.Proof.Gen.Kernel.Frame
import proofs.«136961_j40106404610132_1_alg».proof.Proof.Gen.KernelIdeal
import proofs.«136961_j40106404610132_1_alg».proof.Proof.Gen.KernelIdeal.Skeleton
import proofs.«136961_j40106404610132_1_alg».proof.Proof.Gen.KernelIdeal.Launch
import proofs.«136961_j40106404610132_1_alg».proof.Proof.Gen.KernelIdeal.Points
import proofs.«136961_j40106404610132_1_alg».proof.Proof.Gen.KernelIdeal.Frame
import proofs.«136961_j40106404610132_1_alg».proof.Proof.Gen.ReferenceIdeal
import proofs.«136961_j40106404610132_1_alg».proof.Proof.Gen.Pre_finite_inputs
import proofs.«136961_j40106404610132_1_alg».proof.Proof.Gen.ReferenceIdeal.Run
import proofs.«136961_j40106404610132_1_alg».proof.Proof.Gen.ReferenceIdeal.Read
import proofs.«136961_j40106404610132_1_alg».proof.Proof.RefTaps
import proofs.«136961_j40106404610132_1_alg».proof.Proof.KernelArray
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and keeps its arguments: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `w`, the kernel's result array and the reference's are both the row
    convolution `conv x w`: the kernel's by its run read through the grid and the two reshapes, the reference's by its
    run read stage by stage. -/
theorem algebraic : Cert.algebraic_KernelIdeal_ReferenceIdeal := by
  intro m ρ m' ρ' _ hagree
  refine ⟨fun c => Cert.RowConv.conv
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v38_eq, Cert.ReferenceIdeal.RefValue.reference_eq_conv,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
